-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S1x8192x256 : Shape := ⟨3, ![1, 8192, 256]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_

variable [Facts]

def fn {F : FTy → Type} [FloatOps F] (main_arg0 : FVec F S16x256x256 .f32) (main_arg1 : FVec F S1x8192x256 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  main_v8
-- ==== Kernel.lean ====
abbrev S16x256x256 : Shape := ⟨3, ![16, 256, 256]⟩
abbrev S1x8192x256 : Shape := ⟨3, ![1, 8192, 256]⟩
abbrev S4096x256 : Shape := ⟨2, ![4096, 256]⟩
abbrev S8192x256 : Shape := ⟨2, ![8192, 256]⟩
abbrev S4096x8192 : Shape := ⟨2, ![4096, 8192]⟩
abbrev S16x256x8192 : Shape := ⟨3, ![16, 256, 8192]⟩
abbrev S1024x256 : Shape := ⟨2, ![1024, 256]⟩
abbrev S4096x1024 : Shape := ⟨2, ![4096, 1024]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16x256x256, .f32⟩
  | .hbm, ⟨1, _⟩ => ⟨S1x8192x256, .f32⟩
  | .hbm, ⟨2, _⟩ => ⟨S4096x256, .f32⟩
  | .hbm, ⟨3, _⟩ => ⟨S8192x256, .f32⟩
  | .hbm, ⟨4, _⟩ => ⟨S4096x8192, .f32⟩
  | .hbm, ⟨5, _⟩ => ⟨S16x256x8192, .f32⟩
  | .local _ .vmem, ⟨0, _⟩ => ⟨S4096x256, .f32⟩
  | .local _ .vmem, ⟨1, _⟩ => ⟨S1024x256, .f32⟩
  | .local _ .vmem, ⟨2, _⟩ => ⟨S1024x256, .f32⟩
  | .local _ .vmem, ⟨3, _⟩ => ⟨S4096x1024, .f32⟩
  | .local _ .vmem, ⟨4, _⟩ => ⟨S4096x1024, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x256_S4096x256 : S16x256x256.ShapeCasts S4096x256
  shapeCasts_S1x8192x256_S8192x256 : S1x8192x256.ShapeCasts S8192x256
  shapeCasts_S4096x8192_S16x256x8192 : S4096x8192.ShapeCasts S16x256x8192
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S4096x256_S4096 : S4096x256.Reduces [1] S4096
  shapeCasts_S4096_S4096x1 : S4096.ShapeCasts S4096x1
  reduces_S1024x256_S1024 : S1024x256.Reduces [1] S1024
  shapeCasts_S1024_S1x1024 : S1024.ShapeCasts S1x1024
  broadcasts_S4096x1_S4096x1024 : S4096x1.Broadcasts S4096x1024
  broadcasts_S1x1024_S4096x1024 : S1x1024.Broadcasts S4096x1024
  inb_S4096x1024_S4096x1024_0_0 : ∀ a, (![0, 0] : Fin 2 → Nat) a + S4096x1024.size a ≤ S4096x1024.size a
  h_S4096x1024 : 0 < S4096x1024.numel
  dot_S4096x256_S1024x256_S4096x1024_1_1_0_0_n_n_wf : DotDims.WF S4096x256 S1024x256 S4096x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x8192.size a
  hwx0_2 : ∀ i : grid0.Coords, EltTy.bits .f32 = 32 ∨ (Rect.block (s := S4096x8192) S4096x1024.size (cc0_transform_2 i) (hinb0_2 i)).WholeWords (EltTy.packing .f32)

variable [Facts₀]

def dot_S4096x256_S1024x256_S4096x1024_1_1_0_0_n_n : DotDims S4096x256 S1024x256 S4096x1024 where
  lhsContracting := [1]
  rhsContracting := [1]
  lhsNonContracting := [0]
  rhsNonContracting := [0]
  lhsBatch := []
  rhsBatch := []
  wf := dot_S4096x256_S1024x256_S4096x1024_1_1_0_0_n_n_wf

abbrev win0_0 : Pipeline.Window sig grid0 :=
  Pipeline.Window.ofSpec (Memref.whole main_call0_v0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S4096x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S1x8192x256 : Shape := ⟨3, ![1, 8192, 256]⟩
abbrev S4096x256 : Shape := ⟨2, ![4096, 256]⟩
abbrev S8192x256 : Shape := ⟨2, ![8192, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S256x8192 : Shape := ⟨2, ![256, 8192]⟩
abbrev S16x256x8192 : Shape := ⟨3, ![16, 256, 8192]⟩

abbrev nBuf : Space → Nat
  | .hbm => 22
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S1x8192x256, .f32⟩
  | .hbm, ⟨2, _⟩ => ⟨S4096x256, .f32⟩
  | .hbm, ⟨3, _⟩ => ⟨S8192x256, .f32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S256x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S16x256x8192, .f32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S16x256x256_S4096x256 : S16x256x256.ShapeCasts S4096x256
  shapeCasts_S1x8192x256_S8192x256 : S1x8192x256.ShapeCasts S8192x256
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S8192x256_S8192_d1 : S8192x256.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x256_S256x8192_1_0 : S8192x256.Transposes [1, 0] S256x8192
  bcast_S_S4096x8192 : S_.BroadcastsInDim S4096x8192 (![] : Fin 0 → Fin S4096x8192.rank)
  shapeCasts_S4096x8192_S16x256x8192 : S4096x8192.ShapeCasts S16x256x8192
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.Spec.lean ====
/-
  The squared Euclidean distance table, as one function of the two flattened operands.

  For feature rows x_r (r < 4096) and codebook rows c_k (k < 8192), each of length 256, entry (r, k) is

      (Σ_d x_r[d]²  +  Σ_d c_k[d]²)  −  2 · Σ_d x_r[d] · c_k[d],

  read on the extended reals, in exactly this grouping: the two squared norms are added first and twice the inner
  product is subtracted from their sum. No finiteness is needed anywhere: both programs compute this very expression,
  so only commutativity-free rewriting (a zero initial value dropped from a sum) joins them.
-/
import Idealize.ShloMosaic.PureOps.Ideal
import Idealize.ShloMosaic.PureOps.Ideal.Laws
import Idealize.ShloMosaic.Lib.ValueIdx

noncomputable section

open scoped BigOperators

namespace Cert.SqDist

open Idealize.ShloMosaic Idealize.ShloMosaic.ValueIdx

/-- One entry of the table, from one feature row `x` and one codebook row `c`: the sum of the two squared norms,
    less twice the inner product (the literal is the word of 2.0, kept as a word: it is the same on both sides). -/
def entry (x c : Fin 256 → EReal) : EReal :=
  ((∑ k : Fin 256, x k * x k) + (∑ k : Fin 256, c k * c k))
    - Ideal.ofBits .f32 0x40000000#32 * ∑ k : Fin 256, x k * c k

/-- The whole table: entry (r, k) from row `r` of the features and row `k` of the codebook. -/
def dist (xs : FVec Ideal ⟨2, ![4096, 256]⟩ .f32) (cs : FVec Ideal ⟨2, ![8192, 256]⟩ .f32) :
    FVec Ideal ⟨2, ![4096, 8192]⟩ .f32 := fun j =>
  entry (fun k => xs (ix2 (j 0) k)) (fun k => cs (ix2 (j 1) k))

/-- The table read at coordinates. -/
theorem dist_apply (xs : FVec Ideal ⟨2, ![4096, 256]⟩ .f32) (cs : FVec Ideal ⟨2, ![8192, 256]⟩ .f32)
    (p : Fin 4096) (q : Fin 8192) :
    dist xs cs (ix2 p q) = entry (fun k => xs (ix2 p k)) (fun k => cs (ix2 q k)) := rfl

/-- The arguments' and the result's reshapes: the 16 × 256 feature vectors flatten to 4096 rows, the codebook drops its
    leading unit axis, and the 4096 × 8192 table folds back to 16 × 256 × 8192. All three keep row-major order. -/
theorem casts_x : (⟨3, ![16, 256, 256]⟩ : Shape).ShapeCasts ⟨2, ![4096, 256]⟩ := by decide
theorem casts_c : (⟨3, ![1, 8192, 256]⟩ : Shape).ShapeCasts ⟨2, ![8192, 256]⟩ := by decide
theorem casts_out : (⟨2, ![4096, 8192]⟩ : Shape).ShapeCasts ⟨3, ![16, 256, 8192]⟩ := by decide

/-- The result both programs return, as one function of the two argument arrays: flatten both, take the distance
    table, fold it back. Both programs begin and end with these same reshapes, so the comparison is made on the
    table and this wrapper is never opened. -/
def result (a0 : FVec Ideal ⟨3, ![16, 256, 256]⟩ .f32) (a1 : FVec Ideal ⟨3, ![1, 8192, 256]⟩ .f32) :
    FVec Ideal ⟨3, ![16, 256, 8192]⟩ .f32 :=
  shapeCast ⟨3, ![16, 256, 8192]⟩ (dist (shapeCast ⟨2, ![4096, 256]⟩ a0 casts_x) (shapeCast ⟨2, ![8192, 256]⟩ a1 casts_c)) casts_out

end Cert.SqDist

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.Payload.lean ====
/-
  What one grid point's body computes, at an entry. The body loads the whole feature matrix (4096 rows) and one block of
  1024 codebook rows, and stores a 4096 × 1024 block: at (p, q) the sum of the squared norm of feature row p and of the
  block's codebook row q, less twice their inner product — `Cert.SqDist.entry` of those two rows. The squared norms are
  lane sums kept as a column and as a row and broadcast over the block; the inner products are one matrix product
  contracting the last axis of both operands into a zero accumulator.
-/
import proofs.«140386_g30906584662302_cont_sun_m_844_15_alg».proof.Proof.Gen.KernelIdeal.Skeleton
import proofs.«140386_g30906584662302_cont_sun_m_844_15_alg».proof.Proof.Spec
import proofs.«140386_g30906584662302_cont_sun_m_844_15_alg».proof.Proof.LibRowsDot
import proofs.«140386_g30906584662302_cont_sun_m_844_15_alg».proof.Proof.LibRows
import proofs.«140386_g30906584662302_cont_sun_m_844_15_alg».proof.Proof.LibColumn
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The matrix product's record reads its left operand at (row of the entry, contraction position) … -/
theorem dot_lhs0 (j : S4096x1024.Idx) (c : dot_S4096x256_S1024x256_S4096x1024_1_1_0_0_n_n.contr.Idx) :
    (dot_S4096x256_S1024x256_S4096x1024_1_1_0_0_n_n.lhsIdx j c 0).val = (j 0).val := by
  unfold DotDims.lhsIdx
  rw [dif_neg (show ¬(0 : Fin S4096x256.rank) ∈ dot_S4096x256_S1024x256_S4096x1024_1_1_0_0_n_n.lhsBatch by decide),
    dif_pos (show (0 : Fin S4096x256.rank) ∈ dot_S4096x256_S1024x256_S4096x1024_1_1_0_0_n_n.lhsNonContracting by decide)]
  rfl

/-- … and its right operand at (column of the entry, contraction position). -/
theorem dot_rhs0 (j : S4096x1024.Idx) (c : dot_S4096x256_S1024x256_S4096x1024_1_1_0_0_n_n.contr.Idx) :
    (dot_S4096x256_S1024x256_S4096x1024_1_1_0_0_n_n.rhsIdx j c 0).val = (j 1).val := by
  unfold DotDims.rhsIdx
  rw [dif_neg (show ¬(0 : Fin S1024x256.rank) ∈ dot_S4096x256_S1024x256_S4096x1024_1_1_0_0_n_n.rhsBatch by decide),
    dif_pos (show (0 : Fin S1024x256.rank) ∈ dot_S4096x256_S1024x256_S4096x1024_1_1_0_0_n_n.rhsNonContracting by decide)]
  rfl

/-- The body's stored value at (p, q) is the table's entry for feature row `p` and the block's codebook row `q`. -/
theorem pay_apply (v0 : Vec Ideal S4096x256 .f32) (v2 : Vec Ideal S1024x256 .f32) (p : Fin 4096) (q : Fin 1024) :
    k0_pay1 (F := Ideal) v0 v2 (ix2 p q) = Cert.SqDist.entry (fun k => v0 (ix2 p k)) (fun k => v2 (ix2 q k)) := by
  have e1 : shapeCast S4096x256 v0 shapeCasts_S4096x256_S4096x256 = v0 := shapeCast_self _ _
  have e3 : shapeCast S1024x256 v2 shapeCasts_S1024x256_S1024x256 = v2 := shapeCast_self _ _
  unfold k0_pay1 Cert.SqDist.entry
  show (_ + _) - _ * _ = (_ + _) - _ * _
  refine congrArg₂ (· - ·) (congrArg₂ (· + ·) ?_ ?_) (congrArg₂ (· * ·) rfl ?_)
  · -- the squared norm of feature row p: a lane sum, kept as a column, broadcast along the block's columns
    refine (broadcastTo_a1_ab_apply _ _ p q).trans ((shapeCast_a_a1_apply _ _ p 0).trans
      ((multiReduction_add_row _ _ _ _ _ p).trans (Finset.sum_congr rfl fun k _ => ?_)))
    rw [mulf_apply, e1]
  · -- the squared norm of codebook row q: a lane sum, kept as a row, broadcast along the block's rows
    refine (broadcastTo_1b_ab_apply _ _ p q).trans ((shapeCast_a_1a_apply _ _ 0 q).trans
      ((multiReduction_add_row _ _ _ _ _ q).trans (Finset.sum_congr rfl fun k _ => ?_)))
    rw [mulf_apply, e3]
  · -- the inner product: the matrix product contracting both last axes, into the zero accumulator
    rw [e1, e3]
    exact Cert.Lora.rows_dot_zero dot_S4096x256_S1024x256_S4096x1024_1_1_0_0_n_n none rfl rfl dot_lhs0
      (fun j c => dot_S4096x256_S1024x256_S4096x1024_1_1_0_0_n_n.lhsIdx_val_of_single rfl j c) dot_rhs0
      (fun j c => dot_S4096x256_S1024x256_S4096x1024_1_1_0_0_n_n.rhsIdx_val_of_single rfl j c) v0 v2 p q

end Cert.KernelIdeal.Hand

end
-- ==== Proof.Blocks.lean ====
/-
  From the grid's blocks to the whole table. The grid has 8 points; point t loads the whole flattened feature matrix
  (its window never moves) and rows 1024·t … 1024·t + 1023 of the flattened codebook, and writes back columns
  1024·t … 1024·t + 1023 of the 4096 × 8192 table. Entry (p, q) of the block it writes is the table's entry
  (p, 1024·t + q), so every written block is a restriction of the one whole-table function `Cert.SqDist.dist` of the
  two flattened operands; the 8 column blocks cover the table (column s lies in block s / 1024), hence after the
  region the table's array holds `dist` everywhere.
-/
import proofs.«140386_g30906584662302_cont_sun_m_844_15_alg».proof.Proof.Gen.KernelIdeal.Frame
import proofs.«140386_g30906584662302_cont_sun_m_844_15_alg».proof.Proof.Payload
import proofs.«140386_g30906584662302_cont_sun_m_844_15_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ)

theorem offsets_zero : (![0, 0] : Fin 2 → Nat) = fun _ => 0 := funext fun a => by fin_cases a <;> rfl

/-- The three index maps over the 8 grid points: the features' block index is (0, 0) throughout, the codebook's is
    (t, 0) and the table's is (0, t). -/
theorem index_maps : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- Column 1024·n + q of the table exists when n is one of the 8 points and q one of a block's 1024 columns. -/
theorem col_lt {n : ℕ} (hn : n < 8) (q : Fin 1024) : n * 1024 + q.val < 8192 := by have := q.isLt; omega

/-- A block of the body's output is a block of the table: when the loaded feature block `xb` is all of `xs` and the
    loaded codebook block `cb` is rows 1024·n … of `cs`, the stored value at `y` is the table's entry at the index `i`
    with the same row and with column 1024·n + (y's column). -/
theorem pay_is_block (xs : FVec Ideal S4096x256 .f32) (cs : FVec Ideal S8192x256 .f32)
    (xb : Vec Ideal S4096x256 .f32) (cb : Vec Ideal S1024x256 .f32) (n : ℕ) (hn : n < 8)
    (hx : ∀ (p : Fin 4096) (k : Fin 256), xb (ix2 p k) = xs (ix2 p k))
    (hc : ∀ (q : Fin 1024) (k : Fin 256), cb (ix2 q k) = cs (ix2 (⟨n * 1024 + q.val, col_lt hn q⟩ : Fin 8192) k))
    (y : S4096x1024.Idx) (i : S4096x8192.Idx) (hi0 : (i 0).val = (y 0).val) (hi1 : (i 1).val = n * 1024 + (y 1).val) :
    k0_pay1 (F := Ideal) xb cb y = Cert.SqDist.dist xs cs i := by
  obtain ⟨p, q, rfl⟩ : ∃ (p : Fin 4096) (q : Fin 1024), y = ix2 p q := ⟨y 0, y 1, eq_ix2 y⟩
  obtain ⟨r, s, rfl⟩ : ∃ (r : Fin 4096) (s : Fin 8192), i = ix2 r s := ⟨i 0, i 1, eq_ix2 i⟩
  obtain rfl : r = p := Fin.ext hi0
  obtain rfl : s = (⟨n * 1024 + q.val, col_lt hn q⟩ : Fin 8192) := Fin.ext hi1
  rw [pay_apply, Cert.SqDist.dist_apply]
  exact congrArg₂ Cert.SqDist.entry (funext (hx r)) (funext (hc q))

/-- WHAT POINT `t` WRITES BACK is block `t` of the distance table of the two flattened operands as the region finds them. -/
theorem flushed_eq (c : Dev nD) (t : Fin cfg0.N) :
    (dats m 0 c).flushed 2 t
      = ((cfg0.win 2).blk t).view.read (Elt Ideal) (Cert.SqDist.dist (V m c main_call0_v0) (V m c main_call0_v1)) := by
  show (cfg0.win 2).cut (grid0.coords t) ((dats m 0 c).after 2 t) = _
  rw [after0_2]
  unfold out0_2
  rw [View.canon_unit_zero offsets_zero]
  simp only [View.ld_unit_zero (S := S4096x256) offsets_zero, View.ld_unit_zero (S := S1024x256) offsets_zero]
  obtain ⟨a0, a1, b0, b1, o0, o1⟩ := index_maps t
  have hN : cfg0.N = 8 := N_0
  have ht : t.val < 8 := by have := t.isLt; omega
  funext j
  show k0_pay1 (F := Ideal) (iblk m c 0 t) (iblk m c 1 t) j
    = Cert.SqDist.dist (V m c main_call0_v0) (V m c main_call0_v1) (((cfg0.win 2).blk t).view.emb j)
  refine pay_is_block (V m c main_call0_v0) (V m c main_call0_v1) (iblk m c 0 t) (iblk m c 1 t) t.val ht ?_ ?_ j
    (((cfg0.win 2).blk t).view.emb j) ?_ ?_
  · intro p k
    show V m c main_call0_v0 (((cfg0.win 0).blk t).view.emb (ix2 p k)) = V m c main_call0_v0 (ix2 p k)
    refine congrArg (V m c main_call0_v0) (funext fun a => Fin.ext ?_)
    match a with
    | ⟨0, _⟩ => show win0_0.index t (0 : Fin 2) * 4096 + 1 * p.val = p.val; omega
    | ⟨1, _⟩ => show win0_0.index t (1 : Fin 2) * 256 + 1 * k.val = k.val; omega
  · intro q k
    show V m c main_call0_v1 (((cfg0.win 1).blk t).view.emb (ix2 q k)) = V m c main_call0_v1 (ix2 _ k)
    refine congrArg (V m c main_call0_v1) (funext fun a => Fin.ext ?_)
    match a with
    | ⟨0, _⟩ => show win0_1.index t (0 : Fin 2) * 1024 + 1 * q.val = t.val * 1024 + q.val; omega
    | ⟨1, _⟩ => show win0_1.index t (1 : Fin 2) * 256 + 1 * k.val = k.val; omega
  · show win0_2.index t (0 : Fin 2) * 4096 + 1 * (j 0).val = (j 0).val; omega
  · show win0_2.index t (1 : Fin 2) * 1024 + 1 * (j 1).val = t.val * 1024 + (j 1).val; omega

/-- An index of the table is in point `t`'s block iff each coordinate is in the block's range on its axis. -/
theorem mem_blk (t : Fin cfg0.N) (i : S4096x8192.Idx) :
    i ∈ ((cfg0.win 2).blk t).view.set ↔ ∀ a : Fin 2, win0_2.index t a * S4096x1024.size a ≤ (i a).val
      ∧ (i a).val < win0_2.index t a * S4096x1024.size a + S4096x1024.size a := by
  show i ∈ ((View.whole main_call0_v2).slice (win0_2.rect t)).set ↔ _
  rw [View.set_slice_whole, Rect.mem_set_unit]
  exact Iff.rfl

/-- The 8 column blocks cover the table: column s lies in the block of point s / 1024. -/
theorem covered (i : S4096x8192.Idx) :
    ∃ t : Fin cfg0.N, (cfg0.win 2).flush t = true ∧ i ∈ ((cfg0.win 2).blk t).view.set := by
  have hN : cfg0.N = 8 := N_0
  have hi0 : (i 0).val < 4096 := (i 0).isLt
  have hi1 : (i 1).val < 8192 := (i 1).isLt
  refine ⟨⟨(i 1).val / 1024, by omega⟩, flush0_2 _, ?_⟩
  rw [mem_blk]
  obtain ⟨-, -, -, -, o0, o1⟩ := index_maps ⟨(i 1).val / 1024, by omega⟩
  intro a
  match a with
  | ⟨0, _⟩ =>
    show win0_2.index _ (0 : Fin 2) * 4096 ≤ (i 0).val ∧ (i 0).val < win0_2.index _ (0 : Fin 2) * 4096 + 4096
    rw [o0]; omega
  | ⟨1, _⟩ =>
    show win0_2.index _ (1 : Fin 2) * 1024 ≤ (i 1).val ∧ (i 1).val < win0_2.index _ (1 : Fin 2) * 1024 + 1024
    rw [o1]
    show (i 1).val / 1024 * 1024 ≤ (i 1).val ∧ (i 1).val < (i 1).val / 1024 * 1024 + 1024
    omega

/-- THE TABLE'S ARRAY after the region: the distance table of the two flattened operands as the region finds them. -/
theorem table_final (c : Dev nD) :
    (dats m 0 c).arrAt 2 cfg0.N = Cert.SqDist.dist (V m c main_call0_v0) (V m c main_call0_v1) :=
  (dats m 0 c).arrAt_eq_of_cover 2 (Cert.SqDist.dist (V m c main_call0_v0) (V m c main_call0_v1))
    (fun t _ => flushed_eq m c t) covered

end Cert.KernelIdeal.Hand

end
-- ==== Proof.KernelRun.lean ====
/-
  The kernel's run, read: the result array ends at `Cert.SqDist.result` of the two argument arrays.

  Before the region two host reshapes flatten the arguments (so the region finds the flattened features and the
  flattened codebook); the region leaves the distance table of those two in its output array (the blocks cover it);
  after the region one host reshape folds the table to 16 × 256 × 8192. Composed, that is `result`: flatten both,
  take the table, fold it back.
-/
import proofs.«140386_g30906584662302_cont_sun_m_844_15_alg».proof.Proof.Gen.KernelIdeal.Frame
import proofs.«140386_g30906584662302_cont_sun_m_844_15_alg».proof.Proof.Blocks
import proofs.«140386_g30906584662302_cont_sun_m_844_15_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- The region finds the features flattened: the first host reshape of the first argument. -/
theorem found_x (c : Dev nD) :
    (V m c main_call0_v0 : S4096x256.Idx → EReal)
      = shapeCast S4096x256 (m ((c : Thread nD τ).loc main_arg0)) shapeCasts_S16x256x256_S4096x256 := by
  show StableHlo.after hostOps0 (fun b => m (c, b)) (Proc.devRef .tc main_call0_v0) = _
  after_results
  rfl

/-- The region finds the codebook without its leading unit axis: the second host reshape, of the second argument. -/
theorem found_c (c : Dev nD) :
    (V m c main_call0_v1 : S8192x256.Idx → EReal)
      = shapeCast S8192x256 (m ((c : Thread nD τ).loc main_arg1)) shapeCasts_S1x8192x256_S8192x256 := by
  show StableHlo.after hostOps0 (fun b => m (c, b)) (Proc.devRef .tc main_call0_v1) = _
  after_results
  rfl

/-- The result buffer after the host reshape that follows the region: the table's array, folded — `result` of the
    argument arrays. -/
theorem tail_eq (c : Dev nD) :
    Pipeline.afterTail₀ cfgs (dats m) 0 (V0 m) [hostOps1] c main_v0
      = Cert.SqDist.result (m ((c : Thread nD τ).loc main_arg0)) (m ((c : Thread nD τ).loc main_arg1)) := by
  unfold Pipeline.afterTail₀
  show StableHlo.after hostOps1 _ (Proc.devRef .tc main_v0) = _
  after_results
  -- the reshape's operand is the region's output array as the region leaves it: the distance table
  have e : (Pipeline.withArrays spec0 c (V0 m c) (fun w => (dats m 0 c).arrAt w cfg0.N)
        (Proc.devRef .tc (Pipeline.arrRef spec0 2)) : S4096x8192.Idx → EReal)
      = Cert.SqDist.dist (V m c main_call0_v0) (V m c main_call0_v1) :=
    (Pipeline.withArrays_arr spec0 launch0.win.arr_inj c (V0 m c) (fun w => (dats m 0 c).arrAt w cfg0.N) 2).trans
      (table_final m c)
  refine Eq.trans (b := shapeCast S16x256x8192 (Pipeline.withArrays spec0 c (V0 m c) (fun w => (dats m 0 c).arrAt w cfg0.N)
        (Proc.devRef .tc (Pipeline.arrRef spec0 2)) : S4096x8192.Idx → EReal) shapeCasts_S4096x8192_S16x256x8192) rfl ?_
  rw [e, found_x m c, found_c m c]
  rfl

/-- THE RUN: every weakly fair execution terminates with the result array at `result` of the argument arrays and the
    argument arrays unchanged. -/
theorem run : θ_run defs (onTc (τ := τ) (main (F := Ideal))) ⟨m, fun _ => 0, ρ⟩ fun r => ∀ c : Dev nD,
      r.2.mem ((c.tc : Thread nD τ).loc main_v0)
        = Cert.SqDist.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.RefDist.lean ====
/-
  The reference computes the distance table. Its flattened product (before the final reshape) is, entry by entry,
  `Cert.SqDist.dist` of its two flattened arguments: the row sums are host reductions from a zero initial value (the
  zero drops out), kept as a column and as a row and broadcast; the inner products are one `dot_general` against the
  transposed codebook, which reads the codebook's row k at contraction position d.
-/
import proofs.«140386_g30906584662302_cont_sun_m_844_15_alg».proof.Proof.Gen.ReferenceIdeal.Read
import proofs.«140386_g30906584662302_cont_sun_m_844_15_alg».proof.Proof.Spec

noncomputable section

open scoped BigOperators

namespace Cert.ReferenceIdeal.Hand

open Cert.ReferenceIdeal Cert.ReferenceIdeal.Gen Cert.ReferenceIdeal.Read Idealize.ShloMosaic Idealize.ShloMosaic.ValueIdx

/-- The reference's table before its final reshape is the distance table of its flattened arguments. -/
theorem table_eq (x0 : (⟨S16x256x256, .f32⟩ : BufTy).Contents (Elt Ideal)) (x1 : (⟨S1x8192x256, .f32⟩ : BufTy).Contents (Elt Ideal)) :
    val_main_v15 (F := Ideal) x0 x1 = Cert.SqDist.dist (val_main_v0 (F := Ideal) x0) (val_main_v1 (F := Ideal) x1) := by
  funext j
  obtain ⟨p, q, rfl⟩ : ∃ (p : Fin 4096) (q : Fin 8192), j = ix2 p q := ⟨j 0, j 1, eq_ix2 j⟩
  -- where each composed index map lands, coordinate by coordinate
  have ix : ∀ k : Fin 256, idx_main_v3 (idx_main_v4 (idx_main_v8 (ix2 p q))) k = ix2 p k := fun k =>
    funext fun a => Fin.ext (by match a with | ⟨0, _⟩ => rfl | ⟨1, _⟩ => rfl)
  have ic : ∀ k : Fin 256, idx_main_v6 (idx_main_v7 (idx_main_v9 (ix2 p q))) k = ix2 q k := fun k =>
    funext fun a => Fin.ext (by match a with | ⟨0, _⟩ => rfl | ⟨1, _⟩ => rfl)
  have il : ∀ k : Fin 256, lidx_main_v12 (ix2 p q) k = ix2 p k := fun k =>
    funext fun a => Fin.ext (by match a with | ⟨0, _⟩ => rfl | ⟨1, _⟩ => rfl)
  have ir : ∀ k : Fin 256, idx_main_v11 (ridx_main_v12 (ix2 p q) k) = ix2 q k := fun k =>
    funext fun a => Fin.ext (by match a with | ⟨0, _⟩ => rfl | ⟨1, _⟩ => rfl)
  rw [Cert.SqDist.dist_apply, val_main_v15_apply, val_main_v10_apply, val_main_v8_apply, val_main_v4_apply,
    val_main_v3_apply, val_main_v9_apply, val_main_v7_apply, val_main_v6_apply, val_main_v14_apply,
    val_main_v13_apply, val_main_v12_apply, val_main_cst_apply, val_main_cst_0_apply, val_main_cst_1_apply]
  unfold Cert.SqDist.entry
  simp only [val_main_v2_apply, val_main_v5_apply, val_main_v11_apply, ix, ic, il, ir, Ideal.subf_def, Ideal.addf_def,
    Ideal.mulf_def, Ideal.ofBits_def, Ideal.ofBits_zero_f32, zero_add]

end Cert.ReferenceIdeal.Hand

end
-- ==== Proof.RefResult.lean ====
/-
  The reference returns `Cert.SqDist.result` of its arguments: it flattens both arguments, computes the distance table
  of the flattened pair (`table_eq`) and folds the table back — the very reshapes `result` wraps around the table.
-/
import proofs.«140386_g30906584662302_cont_sun_m_844_15_alg».proof.Proof.RefDist
import proofs.«140386_g30906584662302_cont_sun_m_844_15_alg».proof.Proof.Spec

noncomputable section

namespace Cert.ReferenceIdeal.Hand

open Cert.ReferenceIdeal Cert.ReferenceIdeal.Gen Cert.ReferenceIdeal.Read Idealize.ShloMosaic

/-- The reference's last stage is `result` of the two argument arrays. -/
theorem result_eq (x0 : (⟨S16x256x256, .f32⟩ : BufTy).Contents (Elt Ideal)) (x1 : (⟨S1x8192x256, .f32⟩ : BufTy).Contents (Elt Ideal)) :
    val_main_v16 (F := Ideal) x0 x1 = Cert.SqDist.result x0 x1 := by
  unfold val_main_v16
  rw [table_eq]
  rfl

end Cert.ReferenceIdeal.Hand

end
-- ==== Proof.lean ====
/-
  Squared Euclidean distances from 4096 feature vectors to 8192 codebook rows, both of length 256: a tiled kernel
  against its array-library reference, equal over the extended reals.

  Both programs flatten the features [16, 256, 256] to 4096 rows and drop the codebook's leading unit axis, compute the
  4096 × 8192 table whose entry (r, k) is  (Σ_d x_r[d]² + Σ_d c_k[d]²) − 2 · Σ_d x_r[d] · c_k[d],  and fold the table
  back to [16, 256, 8192]. The reference does this on whole arrays (two row reductions, kept as a column and a row and
  broadcast, and one product with the transposed codebook). The kernel walks 8 grid points; point t holds the whole
  feature matrix and codebook rows 1024·t … 1024·t + 1023, and writes columns 1024·t … 1024·t + 1023 of the table from
  one matrix product contracting the last axis of both blocks and two lane sums. Entry by entry both are the same
  expression in the same grouping (`Cert.SqDist.entry`), a sum's zero initial value dropping out; so no finiteness
  of the inputs is used, and the precondition is never opened.

  • `Spec`      — the table `dist` and the whole result `result` as functions of the argument arrays.
  • `Payload`   — what one grid point stores, at an entry.
  • `Blocks`    — each written block is a block of `dist`; the 8 blocks cover the table.
  • `KernelRun` — the reshapes before and after the region; the kernel's run ends at `result`.
  • `RefDist`, `RefResult` — the reference's stages compose to `result`.
  The frames of the two kernel programs and the reference's run are the generated modules'; the idealization rewrote
  nothing, so its ledger is empty.
-/
import proofs.«140386_g30906584662302_cont_sun_m_844_15_alg».proof.Defs
import proofs.«140386_g30906584662302_cont_sun_m_844_15_alg».proof.Proof.Gen.Kernel
import proofs.«140386_g30906584662302_cont_sun_m_844_15_alg».proof.Proof.Gen.Kernel.Skeleton
import proofs.«140386_g30906584662302_cont_sun_m_844_15_alg».proof.Proof.Gen.Kernel.Launch
import proofs.«140386_g30906584662302_cont_sun_m_844_15_alg».proof.Proof.Gen.Kernel.Points
import proofs.«140386_g30906584662302_cont_sun_m_844_15_alg».proof.Proof.Gen.Kernel.Frame
import proofs.«140386_g30906584662302_cont_sun_m_844_15_alg».proof.Proof.Gen.KernelIdeal
import proofs.«140386_g30906584662302_cont_sun_m_844_15_alg».proof.Proof.Gen.KernelIdeal.Skeleton
import proofs.«140386_g30906584662302_cont_sun_m_844_15_alg».proof.Proof.Gen.KernelIdeal.Launch
import proofs.«140386_g30906584662302_cont_sun_m_844_15_alg».proof.Proof.Gen.KernelIdeal.Points
import proofs.«140386_g30906584662302_cont_sun_m_844_15_alg».proof.Proof.Gen.KernelIdeal.Frame
import proofs.«140386_g30906584662302_cont_sun_m_844_15_alg».proof.Proof.Gen.ReferenceIdeal
import proofs.«140386_g30906584662302_cont_sun_m_844_15_alg».proof.Proof.Gen.Pre_finite_inputs
import proofs.«140386_g30906584662302_cont_sun_m_844_15_alg».proof.Proof.Gen.ReferenceIdeal.Run
import proofs.«140386_g30906584662302_cont_sun_m_844_15_alg».proof.Proof.Gen.ReferenceIdeal.Read
import proofs.«140386_g30906584662302_cont_sun_m_844_15_alg».proof.Proof.KernelRun
import proofs.«140386_g30906584662302_cont_sun_m_844_15_alg».proof.Proof.RefResult
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both idealized programs end with the result array at `Cert.SqDist.result` of the (agreeing) argument arrays. -/
theorem algebraic : Cert.algebraic_KernelIdeal_ReferenceIdeal := by
  intro m ρ m' ρ' _ hagree
  refine ⟨fun c => Cert.SqDist.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Hand.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
